-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x3 : Shape := ⟨3, ![2048, 64, 3]⟩
abbrev S2048x64 : Shape := ⟨2, ![2048, 64]⟩
abbrev S3x384 : Shape := ⟨2, ![3, 384]⟩
abbrev S_ : Shape := ⟨0, ![]⟩

class Facts : Prop where
  bcast_S_S2048x64x3 : S_.BroadcastsInDim S2048x64x3 (![] : Fin 0 → Fin S2048x64x3.rank)
  reducesTo_S2048x64x3_S_d0_1_2 : S2048x64x3.ReducesTo [0, 1, 2] S_
  h_S_ : 0 < S_.numel
  bcast_S_S3x384 : S_.BroadcastsInDim S3x384 (![] : Fin 0 → Fin S3x384.rank)
  reducesTo_S3x384_S_d0_1 : S3x384.ReducesTo [0, 1] S_

variable [Facts]

def fn {F : FTy → Type} [FloatOps F] (main_arg0 : FVec F S2048x64x3 .f32) (main_arg1 : IVec S2048x64 32) (main_arg2 : FVec F S3x384 .f32) : IVec S_ 1 :=
  let main_v0 : FVec F S2048x64x3 .f32 := Host.absf main_arg0
  let main_cst : FVec F S_ .f32 := constant S_ .f32 0x7F800000#32
  let main_v1 : FVec F S2048x64x3 .f32 := broadcastInDim S2048x64x3 ![] bcast_S_S2048x64x3 main_cst
  let main_v2 : IVec S2048x64x3 1 := cmpf .olt main_v0 main_v1
  let main_c : IVec S_ 1 := constantI S_ 1 1#1
  let main_v3 : IVec S_ 1 := (fun x v => Host.reduce IntOp.andi x v reducesTo_S2048x64x3_S_d0_1_2 h_S_) main_v2 main_c
  let main_v4 : FVec F S3x384 .f32 := Host.absf main_arg2
  let main_cst_0 : FVec F S_ .f32 := constant S_ .f32 0x7F800000#32
  let main_v5 : FVec F S3x384 .f32 := broadcastInDim S3x384 ![] bcast_S_S3x384 main_cst_0
  let main_v6 : IVec S3x384 1 := cmpf .olt main_v4 main_v5
  let main_c_1 : IVec S_ 1 := constantI S_ 1 1#1
  let main_v7 : IVec S_ 1 := (fun x v => Host.reduce IntOp.andi x v reducesTo_S3x384_S_d0_1 h_S_) main_v6 main_c_1
  let main_v8 : IVec S_ 1 := andi main_v3 main_v7
  main_v8
-- ==== Kernel.lean ====
abbrev S2048x64x3 : Shape := ⟨3, ![2048, 64, 3]⟩
abbrev S2048x64 : Shape := ⟨2, ![2048, 64]⟩
abbrev S3x384 : Shape := ⟨2, ![3, 384]⟩
abbrev S131072 : Shape := ⟨1, ![131072]⟩
abbrev S2048 : Shape := ⟨1, ![2048]⟩
abbrev S_ : Shape := ⟨0, ![]⟩
abbrev S4 : Shape := ⟨1, ![4]⟩
abbrev S131072x1 : Shape := ⟨2, ![131072, 1]⟩
abbrev S131072x3 : Shape := ⟨2, ![131072, 3]⟩
abbrev S131072x384 : Shape := ⟨2, ![131072, 384]⟩
abbrev S4096x3 : Shape := ⟨2, ![4096, 3]⟩
abbrev S4096x384 : Shape := ⟨2, ![4096, 384]⟩

abbrev nBuf : Space → Nat
  | .hbm => 47
  | .vmem => 5
  | .smem => 0
  | _ => 0

abbrev bufTy : (tb : Table) → Fin (tcTables nBuf tb) → BufTy
  | .hbm, ⟨0, _⟩ => ⟨S2048x64x3, .f32⟩
  | .hbm, ⟨1, _⟩ => ⟨S2048x64, .i32⟩
  | .hbm, ⟨2, _⟩ => ⟨S3x384, .f32⟩
  | .hbm, ⟨3, _⟩ => ⟨S131072, .i32⟩
  | .hbm, ⟨4, _⟩ => ⟨S2048, .i32⟩
  | .hbm, ⟨5, _⟩ => ⟨S2048x64, .i32⟩
  | .hbm, ⟨6, _⟩ => ⟨S131072, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S_, .i32⟩
  | .hbm, ⟨11, _⟩ => ⟨S4, .i32⟩
  | .hbm, ⟨12, _⟩ => ⟨S_, .i32⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S_, .i32⟩
  | .hbm, ⟨25, _⟩ => ⟨S131072, .i32⟩
  | .hbm, ⟨26, _⟩ => ⟨S4, .i32⟩
  | .hbm, ⟨27, _⟩ => ⟨S_, .i32⟩
  | .hbm, ⟨28, _⟩ => ⟨S131072, .i32⟩
  | .hbm, ⟨29, _⟩ => ⟨S131072, .i1⟩
  | .hbm, ⟨30, _⟩ => ⟨S_, .i32⟩
  | .hbm, ⟨31, _⟩ => ⟨S131072, .i32⟩
  | .hbm, ⟨32, _⟩ => ⟨S131072, .i32⟩
  | .hbm, ⟨33, _⟩ => ⟨S131072, .i32⟩
  | .hbm, ⟨34, _⟩ => ⟨S131072x1, .i32⟩
  | .hbm, ⟨35, _⟩ => ⟨S131072, .i32⟩
  | .hbm, ⟨36, _⟩ => ⟨S131072x3, .f32⟩
  | .hbm, ⟨37, _⟩ => ⟨S_, .i32⟩
  | .hbm, ⟨38, _⟩ => ⟨S131072, .i32⟩
  | .hbm, ⟨39, _⟩ => ⟨S131072, .i1⟩
  | .hbm, ⟨40, _⟩ => ⟨S_, .i32⟩
  | .hbm, ⟨41, _⟩ => ⟨S131072, .i32⟩
  | .hbm, ⟨42, _⟩ => ⟨S131072, .i32⟩
  | .hbm, ⟨43, _⟩ => ⟨S131072, .i32⟩
  | .hbm, ⟨44, _⟩ => ⟨S131072x1, .i32⟩
  | .hbm, ⟨45, _⟩ => ⟨S131072x3, .f32⟩
  | .hbm, ⟨46, _⟩ => ⟨S131072x384, .f32⟩
  | .local _ .vmem, ⟨0, _⟩ => ⟨S4096x3, .f32⟩
  | .local _ .vmem, ⟨1, _⟩ => ⟨S4096x3, .f32⟩
  | .local _ .vmem, ⟨2, _⟩ => ⟨S3x384, .f32⟩
  | .local _ .vmem, ⟨3, _⟩ => ⟨S4096x384, .f32⟩
  | .local _ .vmem, ⟨4, _⟩ => ⟨S4096x384, .f32⟩
  | _, _ => ⟨S2048x64x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1_0 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2048x64_S131072 : S2048x64.ShapeCasts S131072
  bcast_S2048_S2048x64_0 : S2048.BroadcastsInDim S2048x64 (![0] : Fin 1 → Fin S2048x64.rank)
  bcast_S_S4 : S_.BroadcastsInDim S4 (![] : Fin 0 → Fin S4.rank)
  bcast_S_S131072 : S_.BroadcastsInDim S131072 (![] : Fin 0 → Fin S131072.rank)
  bcast_S131072_S131072x1_0 : S131072.BroadcastsInDim S131072x1 (![0] : Fin 1 → Fin S131072x1.rank)
  shapeCasts_S2048x64x3_S131072x3 : S2048x64x3.ShapeCasts S131072x3
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  inb_S3x384_S3x384_0_0 : ∀ a, (![0, 0] : Fin 2 → Nat) a + S3x384.size a ≤ S3x384.size a
  h_S3x384 : 0 < S3x384.numel
  inb_S4096x384_S4096x384_0_0 : ∀ a, (![0, 0] : Fin 2 → Nat) a + S4096x384.size a ≤ S4096x384.size a
  h_S4096x384 : 0 < S4096x384.numel
  scatter_S4_S131072x1_S131072_n_0_0_1_wf : ScatterDims.WF S4 S131072x1 S131072 [] [0] [0] 1
  gather_S131072_S131072x1_S131072_n_0_n_n_0_1_1_wf : GatherDims.WF S131072 S131072x1 S131072 [] [0] [] [0] [] 1 ![1]
  gather_S131072x3_S131072x1_S131072x3_1_0_n_n_0_1_13_wf : GatherDims.WF S131072x3 S131072x1 S131072x3 [1] [0] [] [0] [] 1 ![1, 3]
  dot_S4096x3_S3x384_S4096x384_1_0_0_1_n_n_wf : DotDims.WF S4096x3 S3x384 S4096x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S131072x3.size a
  hwx0_0 : ∀ i : grid0.Coords, EltTy.bits .f32 = 32 ∨ (Rect.block (s := S131072x3) S4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x384.size a ≤ S3x384.size a
  hwx0_1 : ∀ i : grid0.Coords, EltTy.bits .f32 = 32 ∨ (Rect.block (s := S3x384) S3x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x384.size a ≤ S131072x384.size a
  hwx0_2 : ∀ i : grid0.Coords, EltTy.bits .f32 = 32 ∨ (Rect.block (s := S131072x384) S4096x384.size (cc0_transform_2 i) (hinb0_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def scatter_S4_S131072x1_S131072_n_0_0_1 : ScatterDims S4 S131072x1 S131072 where
  updateWindowDims := []
  insertedWindowDims := [0]
  scatterDimsToOperandDims := [0]
  indexVectorDim := 1
  wf := scatter_S4_S131072x1_S131072_n_0_0_1_wf
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def gather_S131072x3_S131072x1_S131072x3_1_0_n_n_0_1_13 : GatherDims S131072x3 S131072x1 S131072x3 where
  offsetDims := [1]
  collapsedSliceDims := [0]
  operandBatchingDims := []
  startIndicesBatchingDims := []
  startIndexMap := [0]
  indexVectorDim := 1
  sliceSizes := ![1, 3]
  wf := gather_S131072x3_S131072x1_S131072x3_1_0_n_n_0_1_13_wf
def dot_S4096x3_S3x384_S4096x384_1_0_0_1_n_n : DotDims S4096x3 S3x384 S4096x384 where
  lhsContracting := [1]
  rhsContracting := [0]
  lhsNonContracting := [0]
  rhsNonContracting := [1]
  lhsBatch := []
  rhsBatch := []
  wf := dot_S4096x3_S3x384_S4096x384_1_0_0_1_n_n_wf

abbrev win0_0 : Pipeline.Window sig grid0 :=
  Pipeline.Window.ofSpec (Memref.whole main_v29) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S4096x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x64x3 : Shape := ⟨3, ![2048, 64, 3]⟩
abbrev S2048x64 : Shape := ⟨2, ![2048, 64]⟩
abbrev S3x384 : Shape := ⟨2, ![3, 384]⟩
abbrev S131072x3 : Shape := ⟨2, ![131072, 3]⟩
abbrev S131072x384 : Shape := ⟨2, ![131072, 384]⟩
abbrev S131072 : Shape := ⟨1, ![131072]⟩
abbrev S2048 : Shape := ⟨1, ![2048]⟩
abbrev S_ : Shape := ⟨0, ![]⟩
abbrev S131072x1 : Shape := ⟨2, ![131072, 1]⟩
abbrev S4 : Shape := ⟨1, ![4]⟩

abbrev nBuf : Space → Nat
  | .hbm => 48
  | .vmem => 0
  | .smem => 0
  | _ => 0

abbrev bufTy : (tb : Table) → Fin (tcTables nBuf tb) → BufTy
  | .hbm, ⟨0, _⟩ => ⟨S2048x64x3, .f32⟩
  | .hbm, ⟨1, _⟩ => ⟨S2048x64, .i32⟩
  | .hbm, ⟨2, _⟩ => ⟨S3x384, .f32⟩
  | .hbm, ⟨3, _⟩ => ⟨S131072x3, .f32⟩
  | .hbm, ⟨4, _⟩ => ⟨S131072x384, .f32⟩
  | .hbm, ⟨5, _⟩ => ⟨S131072x384, .f32⟩
  | .hbm, ⟨6, _⟩ => ⟨S131072, .i32⟩
  | .hbm, ⟨7, _⟩ => ⟨S2048, .i32⟩
  | .hbm, ⟨8, _⟩ => ⟨S2048x64, .i32⟩
  | .hbm, ⟨9, _⟩ => ⟨S131072, .i32⟩
  | .hbm, ⟨10, _⟩ => ⟨S131072, .i32⟩
  | .hbm, ⟨11, _⟩ => ⟨S131072, .i32⟩
  | .hbm, ⟨12, _⟩ => ⟨S131072, .i32⟩
  | .hbm, ⟨13, _⟩ => ⟨S_, .i32⟩
  | .hbm, ⟨14, _⟩ => ⟨S131072, .i32⟩
  | .hbm, ⟨15, _⟩ => ⟨S131072, .i1⟩
  | .hbm, ⟨16, _⟩ => ⟨S_, .i32⟩
  | .hbm, ⟨17, _⟩ => ⟨S131072, .i32⟩
  | .hbm, ⟨18, _⟩ => ⟨S131072, .i32⟩
  | .hbm, ⟨19, _⟩ => ⟨S131072, .i32⟩
  | .hbm, ⟨20, _⟩ => ⟨S131072x1, .i32⟩
  | .hbm, ⟨21, _⟩ => ⟨S131072x384, .f32⟩
  | .hbm, ⟨22, _⟩ => ⟨S_, .i32⟩
  | .hbm, ⟨23, _⟩ => ⟨S131072, .i32⟩
  | .hbm, ⟨24, _⟩ => ⟨S131072, .i1⟩
  | .hbm, ⟨25, _⟩ => ⟨S_, .i32⟩
  | .hbm, ⟨26, _⟩ => ⟨S131072, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S131072, .i32⟩
  | .hbm, ⟨31, _⟩ => ⟨S_, .i32⟩
  | .hbm, ⟨32, _⟩ => ⟨S4, .i32⟩
  | .hbm, ⟨33, _⟩ => ⟨S_, .i32⟩
  | .hbm, ⟨34, _⟩ => ⟨S_, .i32⟩
  | .hbm, ⟨35, _⟩ => ⟨S131072, .i32⟩
  | .hbm, ⟨36, _⟩ => ⟨S131072, .i32⟩
  | .hbm, ⟨37, _⟩ => ⟨S_, .i32⟩
  | .hbm, ⟨38, _⟩ => ⟨S131072, .i32⟩
  | .hbm, ⟨39, _⟩ => ⟨S131072, .i1⟩
  | .hbm, ⟨40, _⟩ => ⟨S_, .i32⟩
  | .hbm, ⟨41, _⟩ => ⟨S131072, .i32⟩
  | .hbm, ⟨42, _⟩ => ⟨S131072, .i32⟩
  | .hbm, ⟨43, _⟩ => ⟨S131072, .i32⟩
  | .hbm, ⟨44, _⟩ => ⟨S131072x1, .i32⟩
  | .hbm, ⟨45, _⟩ => ⟨S_, .i32⟩
  | .hbm, ⟨46, _⟩ => ⟨S131072, .i32⟩
  | .hbm, ⟨47, _⟩ => ⟨S4, .i32⟩
  | _, _ => ⟨S2048x64x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1_0 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  shapeCasts_S2048x64x3_S131072x3 : S2048x64x3.ShapeCasts S131072x3
  shapeCasts_S2048x64_S131072 : S2048x64.ShapeCasts S131072
  bcast_S2048_S2048x64_0 : S2048.BroadcastsInDim S2048x64 (![0] : Fin 1 → Fin S2048x64.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S4 : S_.BroadcastsInDim S4 (![] : Fin 0 → Fin S4.rank)
  dot_S131072x3_S3x384_S131072x384_1_0_0_1_n_n_wf : DotDims.WF S131072x3 S3x384 S131072x384 [1] [0] [0] [1] [] []
  gather_S131072x384_S131072x1_S131072x384_1_0_n_n_0_1_1384_wf : GatherDims.WF S131072x384 S131072x1 S131072x384 [1] [0] [] [0] [] 1 ![1, 384]
  gather_S131072_S131072x1_S131072_n_0_n_n_0_1_1_wf : GatherDims.WF S131072 S131072x1 S131072 [] [0] [] [0] [] 1 ![1]
  scatter_S4_S131072x1_S131072_n_0_0_1_wf : ScatterDims.WF S4 S131072x1 S131072 [] [0] [0] 1

variable [Facts₀]

def dot_S131072x3_S3x384_S131072x384_1_0_0_1_n_n : DotDims S131072x3 S3x384 S131072x384 where
  lhsContracting := [1]
  rhsContracting := [0]
  lhsNonContracting := [0]
  rhsNonContracting := [1]
  lhsBatch := []
  rhsBatch := []
  wf := dot_S131072x3_S3x384_S131072x384_1_0_0_1_n_n_wf
def comparator_i32_i32_d0 : BitVec 32 × BitVec 32 → BitVec 32 × BitVec 32 → BitVec 1 :=
  fun l r =>
    let v2 := IntOp.cmpi .slt l.1 r.1
    v2
def gather_S131072x384_S131072x1_S131072x384_1_0_n_n_0_1_1384 : GatherDims S131072x384 S131072x1 S131072x384 where
  offsetDims := [1]
  collapsedSliceDims := [0]
  operandBatchingDims := []
  startIndicesBatchingDims := []
  startIndexMap := [0]
  indexVectorDim := 1
  sliceSizes := ![1, 384]
  wf := gather_S131072x384_S131072x1_S131072x384_1_0_n_n_0_1_1384_wf
def gather_S131072_S131072x1_S131072_n_0_n_n_0_1_1 : GatherDims S131072 S131072x1 S131072 where
  offsetDims := []
  collapsedSliceDims := [0]
  operandBatchingDims := []
  startIndicesBatchingDims := []
  startIndexMap := [0]
  indexVectorDim := 1
  sliceSizes := ![1]
  wf := gather_S131072_S131072x1_S131072_n_0_n_n_0_1_1_wf
def scatter_S4_S131072x1_S131072_n_0_0_1 : ScatterDims S4 S131072x1 S131072 where
  updateWindowDims := []
  insertedWindowDims := [0]
  scatterDimsToOperandDims := [0]
  indexVectorDim := 1
  wf := scatter_S4_S131072x1_S131072_n_0_0_1_wf

class Facts : Prop extends Facts₀ where

variable [Facts]
-- ==== Proof.KernelHost.lean ====
/-
  What the kernel program's host operations compute before the region, as functions of the argument arrays.

  `sortedRows x1` is the index column the two gathers read: the stable sorting permutation of the flattened atom types
  (the second component of the two-key sort of the types beside `0, 1, 2, …`), each entry with the array length added
  when negative, laid as a column. `typeRows x1` is the index column the counting scatter reads: the flattened types
  clipped below at zero, each with the number of types added when negative. The region's first operand is the rows of
  the flattened coordinates gathered by `sortedRows`; the conformer numbers gathered by the same column and the type
  counts (ones scatter-added onto four zeros at `typeRows`) are the program's second and third results.
-/
import proofs.«133443_j81827716923470_1_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The stable sorting permutation of the flattened atom types. -/
def perm (x1 : (⟨S2048x64, .i32⟩ : BufTy).Contents (Elt F)) : (⟨S131072, .i32⟩ : BufTy).Contents (Elt F) :=
  (Host.sort2 S131072 0 comparator_i32_i32_d0 (shapeCast _ x1 shapeCasts_S2048x64_S131072) (iotaInDim S131072 32 0)).2

/-- The permutation as the index column of a gather: a negative entry wrapped by the array length. -/
def sortedRows (x1 : (⟨S2048x64, .i32⟩ : BufTy).Contents (Elt F)) : (⟨S131072x1, .i32⟩ : BufTy).Contents (Elt F) :=
  broadcastInDim S131072x1 ![0] bcast_S131072_S131072x1_0
    (select (cmpi .slt (perm (F := F) x1) (broadcastInDim S131072 ![] bcast_S_S131072 (constantI S_ 32 0#32)))
      (addi (perm (F := F) x1) (broadcastInDim S131072 ![] bcast_S_S131072 (constantI S_ 32 131072#32)))
      (perm (F := F) x1))

/-- The flattened atom types clipped below at zero. -/
def clipped (x1 : (⟨S2048x64, .i32⟩ : BufTy).Contents (Elt F)) : (⟨S131072, .i32⟩ : BufTy).Contents (Elt F) :=
  maxsi (broadcastInDim S131072 ![] bcast_S_S131072 (id (constantI S_ 32 0#32))) (shapeCast _ x1 shapeCasts_S2048x64_S131072)

/-- The clipped types as the index column of the counting scatter: a negative entry wrapped by the number of types. -/
def typeRows (x1 : (⟨S2048x64, .i32⟩ : BufTy).Contents (Elt F)) : (⟨S131072x1, .i32⟩ : BufTy).Contents (Elt F) :=
  broadcastInDim S131072x1 ![0] bcast_S131072_S131072x1_0
    (select (cmpi .slt (clipped (F := F) x1) (broadcastInDim S131072 ![] bcast_S_S131072 (constantI S_ 32 0#32)))
      (addi (clipped (F := F) x1) (broadcastInDim S131072 ![] bcast_S_S131072 (constantI S_ 32 4#32)))
      (clipped (F := F) x1))

/-- The conformer number of every atom, in sorted order. -/
def confSorted (x1 : (⟨S2048x64, .i32⟩ : BufTy).Contents (Elt F)) : (⟨S131072, .i32⟩ : BufTy).Contents (Elt F) :=
  Host.gather gather_S131072_S131072x1_S131072_n_0_n_n_0_1_1
    (shapeCast _ (broadcastInDim S2048x64 ![0] bcast_S2048_S2048x64_0 (iotaInDim S2048 32 0)) shapeCasts_S2048x64_S131072)
    (sortedRows (F := F) x1)

/-- How many atoms there are of each type. -/
def typeCount (x1 : (⟨S2048x64, .i32⟩ : BufTy).Contents (Elt F)) : (⟨S4, .i32⟩ : BufTy).Contents (Elt F) :=
  Host.scatter scatter_S4_S131072x1_S131072_n_0_0_1 IntOp.addi (broadcastInDim S4 ![] bcast_S_S4 (constantI S_ 32 0#32))
    (typeRows (F := F) x1) (broadcastInDim S131072 ![] bcast_S_S131072 (constantI S_ 32 1#32))

/-- The region's first operand: the rows of the flattened coordinates in sorted order. -/
def coordsSorted (x0 : (⟨S2048x64x3, .f32⟩ : BufTy).Contents (Elt F)) (x1 : (⟨S2048x64, .i32⟩ : BufTy).Contents (Elt F)) :
    (⟨S131072x3, .f32⟩ : BufTy).Contents (Elt F) :=
  Host.gather gather_S131072x3_S131072x1_S131072x3_1_0_n_n_0_1_13 (shapeCast _ x0 shapeCasts_S2048x64x3_S131072x3)
    (sortedRows (F := F) x1)

variable (m : (ℓ : Loc nD τ sig) → Buf (Elt F) ℓ)

set_option maxRecDepth 8192 in
set_option maxHeartbeats 2000000 in
/-- When the region is entered its first operand holds the sorted coordinate rows. -/
theorem V_main_v29 (c : Dev nD) :
    V m c main_v29 = coordsSorted (F := F) (m ((c.tc : Thread nD τ).loc main_arg0)) (m ((c.tc : Thread nD τ).loc main_arg1)) := by
  dsimp only [V]
  simp only [hostOps0, hostOps0_1, hostOps0_2, hostOps0_3, hostOps0_4, List.flatten_cons, List.flatten_nil, List.append_nil,
    List.cons_append, List.nil_append]
  after_results_simp <;> rfl

set_option maxRecDepth 8192 in
set_option maxHeartbeats 2000000 in
/-- When the region is entered the second result's buffer holds the sorted conformer numbers. -/
theorem V_main_v21 (c : Dev nD) :
    V m c main_v21 = confSorted (F := F) (m ((c.tc : Thread nD τ).loc main_arg1)) := by
  dsimp only [V]
  simp only [hostOps0, hostOps0_1, hostOps0_2, hostOps0_3, hostOps0_4, List.flatten_cons, List.flatten_nil, List.append_nil,
    List.cons_append, List.nil_append]
  after_results_simp <;> rfl

set_option maxRecDepth 8192 in
set_option maxHeartbeats 2000000 in
/-- When the region is entered the third result's buffer holds the type counts. -/
theorem V_main_v14 (c : Dev nD) :
    V m c main_v14 = typeCount (F := F) (m ((c.tc : Thread nD τ).loc main_arg1)) := by
  dsimp only [V]
  simp only [hostOps0, hostOps0_1, hostOps0_2, hostOps0_3, hostOps0_4, List.flatten_cons, List.flatten_nil, List.append_nil,
    List.cons_append, List.nil_append]
  after_results_simp <;> rfl

end Cert.KernelIdeal.HostValue

end
-- ==== Proof.LibRowGatherScatter.lean ====
/-
  Gathering rows by an index column, and scattering rows onto the rows an index column names, read at an index.

  `x[idx]` for a vector `x : [N]` or a matrix `x : [N, D]` and an index column `idx : [E, 1]` lowers to a gather that
  collapses axis 0: entry `e` (row `e`) of the result is the operand's entry (row) at the start index `idx[e, 0]`, read
  as a signed integer and clamped into `[0, N - 1]`. The accumulating scatter of `[E, D]` updates onto an `[N, D]`
  operand reads the same start index signed and does NOT clamp it: update `(e, k)` lands on `(idx[e, 0], k)` when that
  is a row of the operand and is dropped otherwise. So an update that lands on row `n` has start index exactly `n`.
-/
import Idealize.ShloMosaic.Lib.ValueIdx
import Idealize.ShloMosaic.PureOps.Ideal

noncomputable section

namespace RowIndex

open Idealize.ShloMosaic Idealize.ShloMosaic.ValueIdx

variable {α : Type}

/-- The position in the index column `[E, 1]` that entry (row) `e` reads. -/
abbrev colAt {E : Nat} (e : Fin E) : (⟨2, ![E, 1]⟩ : Shape).Idx := ix2 e (0 : Fin 1)

/-- A start index read signed and clamped into `[0, N - 1]`. -/
def clampRow (N : Nat) (hN : 0 < N) {w : Nat} (b : BitVec w) : Fin N := ⟨min b.toInt.toNat (N - 1), by omega⟩

/-! ## Entries of a vector gathered by an index column -/

/-- The gather's dimension numbers for an operand `[N]`, an index column `[E, 1]` and a result `[E]`. -/
abbrev takeEntries (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the clamped start index `idx[e, 0]`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (takeEntries N E wf) x idx e = x (ix1 (clampRow N hN (idx (colAt (e 0))))) := by
  unfold Host.gather
  congr 1
  funext a
  obtain rfl : a = 0 := Subsingleton.elim _ _
  refine Fin.ext ?_
  show (takeEntries N E wf).start e idx 0 + (takeEntries N E wf).batchCoord e 0 + (takeEntries N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeEntries N E wf).startIndexMap from List.mem_singleton.mpr rfl)]
  have hsi : (takeEntries N E wf).siIdx e ⟨List.idxOf (0 : Fin 1) (takeEntries N E wf).startIndexMap,
      List.idxOf_lt_length_iff.2 (List.mem_singleton.mpr rfl)⟩ = colAt (e 0) := by
    funext b; refine Fin.ext ?_
    match b with
    | ⟨0, _⟩ => rfl
    | ⟨1, _⟩ => rfl
  rw [hsi]
  rfl

/-! ## Rows of a matrix gathered by an index column -/

/-- The gather's dimension numbers for an operand `[N, D]`, an index column `[E, 1]` and a result `[E, D]`. -/
abbrev takeRows (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the gathered matrix is the operand at row "clamped `idx[e, 0]`", column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (takeRows N E D wf) x idx j = x (ix2 (clampRow N hN (idx (colAt (j 0)))) (j 1)) := by
  unfold Host.gather
  congr 1
  funext a
  refine Fin.ext ?_
  match a with
  | ⟨0, _⟩ =>
    show (takeRows N E D wf).start j idx 0 + (takeRows N E D wf).batchCoord j 0 + (takeRows N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N E D wf).startIndexMap from List.mem_singleton.mpr rfl)]
    have hsi : (takeRows N E D wf).siIdx j ⟨List.idxOf (0 : Fin 2) (takeRows N E D wf).startIndexMap,
        List.idxOf_lt_length_iff.2 (List.mem_singleton.mpr rfl)⟩ = colAt (j 0) := by
      funext b; refine Fin.ext ?_
      match b with
      | ⟨0, _⟩ => rfl
      | ⟨1, _⟩ => rfl
    rw [hsi]
    rfl
  | ⟨1, _⟩ =>
    show (takeRows N E D wf).start j idx 1 + (takeRows N E D wf).batchCoord j 1 + (takeRows N E D wf).offCoord j 1 = (j 1).val
    rw [GatherDims.batchCoord_eq_zero _ _ _ List.not_mem_nil]
    have hst : (takeRows N E D wf).start j idx 1 = 0 := by
      unfold GatherDims.start
      rw [dif_neg (show ¬ ((1 : Fin 2) ∈ ([0] : List (Fin 2))) by decide)]
    rw [hst]
    simp only [Nat.add_zero, Nat.zero_add]
    rfl

/-! ## Rows scattered onto the rows an index column names -/

/-- The scatter's dimension numbers for an operand `[N, D]`, an index column `[E, 1]` and updates `[E, D]`. -/
abbrev putRows (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, k)` that lands on the operand's entry `i` has start index `idx[e, 0]`, read signed, equal to `i`'s
    row: the scatter does not clamp. -/
theorem scatter_rows_landing {N E D w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (putRows N E D wf).resultIdx? j idx = some i) : (idx (colAt (j 0))).toInt = ((i 0).val : ℤ) := by
  unfold ScatterDims.resultIdx? at h
  split at h
  · rename_i hc
    have h0 := (hc 0).1
    have hi := congrFun (Option.some.inj h) 0
    have hs : (putRows N E D wf).start j idx 0 = (idx (colAt (j 0))).toInt := by
      unfold ScatterDims.start
      rw [dif_pos (show (0 : Fin 2) ∈ (putRows N E D wf).scatterDimsToOperandDims from List.mem_singleton.mpr rfl)]
      have hsi : (putRows N E D wf).siIdx j ⟨List.idxOf (0 : Fin 2) (putRows N E D wf).scatterDimsToOperandDims,
          List.idxOf_lt_length_iff.2 (List.mem_singleton.mpr rfl)⟩ = colAt (j 0) := by
        funext b; refine Fin.ext ?_
        match b with
        | ⟨0, _⟩ => rfl
        | ⟨1, _⟩ => rfl
      rw [hsi]
      rfl
    have hw : (putRows N E D wf).window j 0 = 0 := by
      unfold ScatterDims.window
      have hmem : (0 : Fin 2) ∉ (putRows N E D wf).sKept :=
        (show ¬ ((0 : Fin 2) ∈ (List.finRange 2).filter (fun a => a ∉ [(0 : Fin 2)])) by decide)
      rw [dif_neg hmem]
    have hi' : (i 0).val = ((putRows N E D wf).start j idx 0 + ((putRows N E D wf).window j 0 : ℕ)).toNat := by
      rw [← hi]
    rw [hs, hw] at hi'
    rw [hs, hw] at h0
    omega
  · exact absurd h (by simp)

/-- A start index that is a row number `n < N` read signed is not negative, and clamps to `n`. -/
theorem clampRow_of_toInt {N w : Nat} (hN : 0 < N) (b : BitVec w) (n : Fin N) (h : b.toInt = (n.val : ℤ)) :
    clampRow N hN b = n := by
  refine Fin.ext ?_
  show min b.toInt.toNat (N - 1) = n.val
  rw [h]
  have := n.isLt
  simp only [Int.toNat_natCast]
  omega

end RowIndex

end
-- ==== Proof.LibRowwise.lean ====
/-
  Gathering rows commutes with a row-wise map: a general lemma.

  A map of matrices is row-wise when row `p` of its result depends on row `p` of its argument only:
  `rowwise f X (p, q) = f (X (p, ·)) q`. Rows gathered by an index column and then mapped are the mapped rows gathered
  by the same column: entry `(p, q)` of either is `f` of the operand's row at the start index `idx[p, 0]`, read signed
  and clamped into the operand's rows, at `q` — the two gathers differ in the row length only and read the same row.
-/
import proofs.«133443_j81827716923470_1_alg».proof.Proof.LibRowGatherScatter

noncomputable section

namespace RowIndex

open Idealize.ShloMosaic Idealize.ShloMosaic.ValueIdx

variable {α β : Type} {N E K D : ℕ}

/-- The matrix whose row `p` is `f` of row `p` of `X`. -/
def rowwise (f : (Fin K → α) → Fin D → β) (X : (⟨2, ![N, K]⟩ : Shape).Idx → α) : (⟨2, ![N, D]⟩ : Shape).Idx → β :=
  fun i => f (fun e => X (ix2 (i 0) e)) (i 1)

/-- Entry `(p, q)` of the row-wise image is `f` of row `p` at `q`. -/
theorem rowwise_apply (f : (Fin K → α) → Fin D → β) (X : (⟨2, ![N, K]⟩ : Shape).Idx → α) (p : Fin N) (q : Fin D) :
    rowwise f X (ix2 p q) = f (fun e => X (ix2 p e)) q := rfl

/-- Mapping the gathered rows is gathering the mapped rows. -/
theorem rowwise_gather_rows {w : ℕ} (hN : 0 < N)
    (wfK : GatherDims.WF ⟨2, ![N, K]⟩ ⟨2, ![E, 1]⟩ ⟨2, ![E, K]⟩ [1] [0] [] [0] [] 1 ![1, K])
    (wfD : GatherDims.WF ⟨2, ![N, D]⟩ ⟨2, ![E, 1]⟩ ⟨2, ![E, D]⟩ [1] [0] [] [0] [] 1 ![1, D])
    (f : (Fin K → α) → Fin D → β) (X : (⟨2, ![N, K]⟩ : Shape).Idx → α) (idx : IVec ⟨2, ![E, 1]⟩ w) :
    rowwise f (Host.gather (takeRows N E K wfK) X idx) = Host.gather (takeRows N E D wfD) (rowwise f X) idx := by
  funext i
  rw [gather_rows_apply hN wfD]
  unfold rowwise
  simp only [gather_rows_apply hN wfK]
  rfl

end RowIndex

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«133443_j81827716923470_1_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.Descriptor.lean ====
/-
  The descriptor of a table of atoms, at the exact extended reals.

  An atom with coordinates `x : K` numbers has the descriptor `tanh (x · W)`: entry `q` is `tanh (∑ e, x e * W (e, q))`.
  The descriptor table of `X : [N, K]` is that map row by row. Three readings of it:
   * the host's `tanh (X @ W)` is the table;
   * a block's `tanh` of the matrix product into a zero accumulator is the table of the block's rows;
   * the table of rows gathered by an index column is the gathered table (the map is row-wise).
-/
import proofs.«133443_j81827716923470_1_alg».proof.Proof.LibRowwise
import proofs.«133443_j81827716923470_1_alg».proof.Proof.LibMatmulNN
import proofs.«133443_j81827716923470_1_alg».proof.Proof.LibDotNN

noncomputable section

namespace Cert.Descriptor

open Idealize.ShloMosaic Idealize.ShloMosaic.ValueIdx RowIndex

variable {N E K D : ℕ}

/-- One atom's descriptor: `tanh` of its coordinates against each column of the weights. -/
def atom (W : FVec Ideal (⟨2, ![K, D]⟩ : Shape) .f32) (x : Fin K → EReal) : Fin D → EReal :=
  fun q => Ideal.tanh (∑ e : Fin K, x e * W (ix2 e q))

/-- The descriptor table: row `p` is the descriptor of the atom whose coordinates are row `p` of `X`. -/
def table (X : FVec Ideal (⟨2, ![N, K]⟩ : Shape) .f32) (W : FVec Ideal (⟨2, ![K, D]⟩ : Shape) .f32) :
    FVec Ideal (⟨2, ![N, D]⟩ : Shape) .f32 :=
  rowwise (atom W) X

/-- Entry `(p, q)` of the table. -/
theorem table_apply (X : FVec Ideal (⟨2, ![N, K]⟩ : Shape) .f32) (W : FVec Ideal (⟨2, ![K, D]⟩ : Shape) .f32)
    (p : Fin N) (q : Fin D) : table X W (ix2 p q) = Ideal.tanh (∑ e : Fin K, X (ix2 p e) * W (ix2 e q)) := rfl

/-- Two tables agree at two entries whose rows agree and whose weight columns agree: an entry depends on its row of
    the coordinates and its column of the weights only. -/
theorem table_eq_of_rows {N' : ℕ} (X : FVec Ideal (⟨2, ![N, K]⟩ : Shape) .f32) (W : FVec Ideal (⟨2, ![K, D]⟩ : Shape) .f32)
    (X' : FVec Ideal (⟨2, ![N', K]⟩ : Shape) .f32) (W' : FVec Ideal (⟨2, ![K, D]⟩ : Shape) .f32)
    (j : (⟨2, ![N, D]⟩ : Shape).Idx) (i : (⟨2, ![N', D]⟩ : Shape).Idx)
    (hrow : ∀ e : Fin K, X (ix2 (j 0) e) = X' (ix2 (i 0) e)) (hcol : ∀ e : Fin K, W (ix2 e (j 1)) = W' (ix2 e (i 1))) :
    table X W j = table X' W' i := by
  show Ideal.tanh (∑ e : Fin K, X (ix2 (j 0) e) * W (ix2 e (j 1))) = Ideal.tanh (∑ e : Fin K, X' (ix2 (i 0) e) * W' (ix2 e (i 1)))
  exact congrArg Ideal.tanh (Finset.sum_congr rfl fun e _ => by rw [hrow e, hcol e])

/-- The host's `tanh` of its matrix product is the table. -/
theorem host_table (wf : DotDims.WF (⟨2, ![N, K]⟩ : Shape) (⟨2, ![K, D]⟩ : Shape) (⟨2, ![N, D]⟩ : Shape) [1] [0] [0] [1] [] [])
    (prec : Option ContractPrecision) (X : FVec Ideal (⟨2, ![N, K]⟩ : Shape) .f32) (W : FVec Ideal (⟨2, ![K, D]⟩ : Shape) .f32) :
    Host.tanh (F := Ideal) (Host.dotGeneral (Cert.LibMatmulNN.dims wf) prec X W) = table X W := by
  funext i
  obtain ⟨p, q, rfl⟩ : ∃ (p : Fin N) (q : Fin D), i = ix2 p q := ⟨i 0, i 1, eq_ix2 i⟩
  rw [table_apply]
  show FloatOps.hostUnary .tanh (FloatOps.dotGeneral (Cert.LibMatmulNN.dims wf) prec .single X W (ix2 p q)) = _
  rw [Cert.LibDotNN.dotGeneral_apply wf prec .single X W p q, Ideal.hostUnary_tanh_def]

/-- A block's `tanh` of the matrix product into a zero accumulator is the table of the block's rows. -/
theorem block_table (wf : DotDims.WF (⟨2, ![N, K]⟩ : Shape) (⟨2, ![K, D]⟩ : Shape) (⟨2, ![N, D]⟩ : Shape) [1] [0] [0] [1] [] [])
    (prec : Option ContractPrecision) (X : FVec Ideal (⟨2, ![N, K]⟩ : Shape) .f32) (W : FVec Ideal (⟨2, ![K, D]⟩ : Shape) .f32) :
    tanh (F := Ideal) (matmul (Cert.LibMatmulNN.dims wf) prec X W (constant (F := Ideal) (⟨2, ![N, D]⟩ : Shape) .f32 0x00000000#32))
      = table X W := by
  funext i
  obtain ⟨p, q, rfl⟩ : ∃ (p : Fin N) (q : Fin D), i = ix2 p q := ⟨i 0, i 1, eq_ix2 i⟩
  rw [table_apply]
  show FloatOps.tanh (FloatOps.matmul (Cert.LibMatmulNN.dims wf) prec X W
    (constant (F := Ideal) (⟨2, ![N, D]⟩ : Shape) .f32 0x00000000#32) (ix2 p q)) = _
  rw [Cert.LibMatmulNN.matmul_zero_apply wf prec X W p q, Ideal.tanh_def]

/-- The table of the gathered rows is the gathered table. -/
theorem table_gather_rows {w : ℕ} (hN : 0 < N)
    (wfK : GatherDims.WF ⟨2, ![N, K]⟩ ⟨2, ![E, 1]⟩ ⟨2, ![E, K]⟩ [1] [0] [] [0] [] 1 ![1, K])
    (wfD : GatherDims.WF ⟨2, ![N, D]⟩ ⟨2, ![E, 1]⟩ ⟨2, ![E, D]⟩ [1] [0] [] [0] [] 1 ![1, D])
    (X : FVec Ideal (⟨2, ![N, K]⟩ : Shape) .f32) (W : FVec Ideal (⟨2, ![K, D]⟩ : Shape) .f32) (idx : IVec ⟨2, ![E, 1]⟩ w) :
    table (Host.gather (takeRows N E K wfK) X idx) W = Host.gather (takeRows N E D wfD) (table X W) idx :=
  rowwise_gather_rows hN wfK wfD (atom W) X idx

end Cert.Descriptor

end
-- ==== Proof.KernelValue.lean ====
/-
  The kernel's first result after the run: the descriptor table of the region's first operand.

  The grid has 32 points; point `t` loads rows `4096 t … 4096 t + 4095` of the operand `[131072, 3]` and the whole
  weights `[3, 384]`, and writes back rows `4096 t … 4096 t + 4095` of the result `[131072, 384]`: `tanh` of the
  block's matrix product, which is the descriptor table of the block's rows. An entry of the table depends on its own
  row of the operand only, so what point `t` writes is block `t` of the table of the WHOLE operand; the 32 blocks tile
  the result (row `r` lies in block `r / 4096`), so the result ends holding that table.
-/
import proofs.«133443_j81827716923470_1_alg».proof.Proof.Gen.KernelIdeal.Value
import proofs.«133443_j81827716923470_1_alg».proof.Proof.Descriptor
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The body's value is the descriptor table of the loaded rows: `tanh` of their product with the weights into a
    zero accumulator. -/
theorem body_table (x0 : Vec Ideal S4096x3 .f32) (x1 : Vec Ideal S3x384 .f32) :
    k0_pay1 (F := Ideal) x0 x1 = Cert.Descriptor.table x0 x1 := by
  show tanh (F := Ideal) (matmul dot_S4096x3_S3x384_S4096x384_1_0_0_1_n_n none (shapeCast S4096x3 x0 shapeCasts_S4096x3_S4096x3) x1
    (constant (F := Ideal) S4096x384 .f32 0x00000000#32)) = _
  rw [shapeCast_self]
  exact Cert.Descriptor.block_table dot_S4096x3_S3x384_S4096x384_1_0_0_1_n_n_wf none x0 x1

/-- The printed index maps over the 32 points: the operand's row block moves with the result's, every column block
    and the weights' block are block 0. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 31
    ∧ win0_2.index t (1 : Fin 2) = 0 :=
  (by decide +kernel : ∀ t : Fin grid0.N, _)

/-- Every row block of the result is some point's. -/
theorem index_onto : ∀ q0 : Fin 32, ∃ t : Fin cfg0.N, win0_2.index t = ![q0.val, 0] :=
  (by decide +kernel : ∀ q0 : Fin 32, ∃ t : Fin grid0.N, win0_2.index t = ![q0.val, 0])

/-- What point `t` writes back is block `t` of the table of the whole operand. -/
theorem flushed_table (c : Dev nD) (t : Fin cfg0.N) :
    (dats m 0 c).flushed 2 t
      = ((cfg0.win 2).blk t).view.read (Elt Ideal) (Cert.Descriptor.table (V m c main_v29) (V m c main_arg2)) := by
  show (cfg0.win 2).cut (grid0.coords t) ((dats m 0 c).after 2 t) = _
  rw [after0_2]
  unfold out0_2
  rw [View.canon_unit_zero zero_offsets]
  simp only [View.ld_unit_zero (S := S4096x3) zero_offsets, View.ld_unit_zero (S := S3x384) zero_offsets]
  rw [body_table]
  obtain ⟨e0, e1, e2, e3, e4, e5⟩ := index_facts t
  funext j
  refine Cert.Descriptor.table_eq_of_rows _ _ _ _ j (((cfg0.win 2).blk t).view.emb j) (fun e => ?_) (fun e => ?_)
  · show V m c main_v29 (((cfg0.win 0).blk t).view.emb (ix2 (j 0) e)) = V m c main_v29 (ix2 ((((cfg0.win 2).blk t).view.emb j) 0) e)
    refine congrArg (V m c main_v29) (funext fun a => Fin.ext ?_)
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 3 + 1 * e.val = e.val; omega
  · show V m c main_arg2 (((cfg0.win 1).blk t).view.emb (ix2 e (j 1))) = V m c main_arg2 (ix2 e ((((cfg0.win 2).blk t).view.emb j) 1))
    refine congrArg (V m c main_arg2) (funext fun a => Fin.ext ?_)
    match a with
    | ⟨0, _⟩ => show win0_1.index t (0 : Fin 2) * 3 + 1 * e.val = e.val; omega
    | ⟨1, _⟩ => show win0_1.index t (1 : Fin 2) * 384 + 1 * (j 1).val = win0_2.index t (1 : Fin 2) * 384 + 1 * (j 1).val; omega

/-- An index of the result is in point `t`'s block iff each coordinate is in the block's range on its axis. -/
theorem mem_block (t : Fin cfg0.N) (i : S131072x384.Idx) :
    i ∈ ((cfg0.win 2).blk t).view.set ↔ ∀ a : Fin 2, win0_2.index t a * S4096x384.size a ≤ (i a).val
      ∧ (i a).val < win0_2.index t a * S4096x384.size a + S4096x384.size a := by
  show i ∈ ((View.whole main_v30).slice (win0_2.rect t)).set ↔ _
  rw [View.set_slice_whole, Rect.mem_set_unit]
  exact Iff.rfl

/-- The blocks tile the result: row `r` is in the block of the point whose row block is `r / 4096`. -/
theorem covered (i : S131072x384.Idx) :
    ∃ t : Fin cfg0.N, (cfg0.win 2).flush t = true ∧ i ∈ ((cfg0.win 2).blk t).view.set := by
  have hi0 : (i 0).val < 131072 := (i 0).isLt
  have hi1 : (i 1).val < 384 := (i 1).isLt
  obtain ⟨t, ht⟩ := index_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 4096 ≤ (i 0).val ∧ (i 0).val < win0_2.index t (0 : Fin 2) * 4096 + 4096; omega
  | ⟨1, _⟩ => show win0_2.index t (1 : Fin 2) * 384 ≤ (i 1).val ∧ (i 1).val < win0_2.index t (1 : Fin 2) * 384 + 384; omega

/-- The result after the run is the descriptor table of the region's first operand. -/
theorem final_table (c : Dev nD) :
    (dats m 0 c).arrAt 2 cfg0.N = Cert.Descriptor.table (V m c main_v29) (V m c main_arg2) :=
  (dats m 0 c).arrAt_eq_of_cover 2 _ (fun t _ => flushed_table m c t) covered

end Cert.KernelIdeal.ArrayValue

end
-- ==== Proof.KernelRun.lean ====
/-
  The kernel program's run, read: every weakly fair execution ends with the first result at the descriptor table of
  the sorted coordinate rows, the second at the sorted conformer numbers and the third at the type counts — the last
  two as the host operations before the region left them, the region touching neither —, the arguments unchanged.
-/
import proofs.«133443_j81827716923470_1_alg».proof.Proof.KernelHost
import proofs.«133443_j81827716923470_1_alg».proof.Proof.KernelValue

noncomputable section

namespace Cert.KernelIdeal.ArrayValue

open Cert.KernelIdeal Cert.KernelIdeal.Gen Cert.KernelIdeal.HostValue Idealize.ShloMosaic Idealize.ShloMosaic.TcCoe Idealize.SL.Sem

variable (m : (ℓ : Loc nD τ sig) → Buf (Elt Ideal) ℓ) (ρ : Dev nD → PrngReg)

/-- The first result after the run, as a function of the argument arrays. -/
theorem final_of_args (c : Dev nD) :
    (dats m 0 c).arrAt 2 cfg0.N
      = Cert.Descriptor.table (coordsSorted (F := Ideal) (m ((c.tc : Thread nD τ).loc main_arg0)) (m ((c.tc : Thread nD τ).loc main_arg1)))
          (m ((c.tc : Thread nD τ).loc main_arg2)) := by
  rw [final_table, V_main_v29, V_main_arg2]

/-- The frame run re-posted with each result at its function of the arguments. -/
theorem run : θ_run defs (onTc (τ := τ) (main (F := Ideal))) ⟨m, fun _ => 0, ρ⟩ fun r => ∀ c : Dev nD,
      r.2.mem ((c.tc : Thread nD τ).loc main_v30)
        = Cert.Descriptor.table (coordsSorted (F := Ideal) (m ((c.tc : Thread nD τ).loc main_arg0)) (m ((c.tc : Thread nD τ).loc main_arg1)))
            (m ((c.tc : Thread nD τ).loc main_arg2))
      ∧ r.2.mem ((c.tc : Thread nD τ).loc main_v21) = confSorted (F := Ideal) (m ((c.tc : Thread nD τ).loc main_arg1))
      ∧ r.2.mem ((c.tc : Thread nD τ).loc main_v14) = typeCount (F := Ideal) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(Value.post2 m r h c).trans (final_of_args m c),
      ((h c).2 main_v21 (Pipeline.mem_restRefs_of main_v21 (by decide) (by decide))).trans (V_main_v21 m c),
      ((h c).2 main_v14 (Pipeline.mem_restRefs_of main_v14 (by decide) (by decide))).trans (V_main_v14 m c),
      Value.kept_main_arg0 m r h c,
      Value.kept_main_arg1 m r h c,
      Value.kept_main_arg2 m r h c⟩)
    (run_main m ρ)

end Cert.KernelIdeal.ArrayValue

end
-- ==== Proof.ReferenceValue.lean ====
/-
  The reference's run, read as the kernel's functions of the arguments.

  The reference computes the descriptor table of ALL atoms, `tanh (coords_flat @ W)`, and gathers its rows by the
  sorted index column; the kernel gathers the coordinate rows by the same column first and computes the table of the
  gathered rows. The table is row-wise, so the two are one array. The conformer numbers and the type counts are the
  same host operations in both programs.
-/
import proofs.«133443_j81827716923470_1_alg».proof.Proof.Gen.ReferenceIdeal.Run
import proofs.«133443_j81827716923470_1_alg».proof.Proof.KernelHost
import proofs.«133443_j81827716923470_1_alg».proof.Proof.Descriptor

noncomputable section

namespace Cert.ReferenceIdeal.RefValue

open Idealize.ShloMosaic Idealize.ShloMosaic.TcCoe Idealize.SL.Sem

/-- The rows of the whole descriptor table gathered by the sorted index column are the table of the sorted
    coordinate rows. -/
theorem gathered_table (x0 : (⟨Cert.ReferenceIdeal.S2048x64x3, .f32⟩ : BufTy).Contents (Elt Ideal))
    (x1 : (⟨Cert.ReferenceIdeal.S2048x64, .i32⟩ : BufTy).Contents (Elt Ideal))
    (W : (⟨Cert.ReferenceIdeal.S3x384, .f32⟩ : BufTy).Contents (Elt Ideal)) :
    Host.gather Cert.ReferenceIdeal.gather_S131072x384_S131072x1_S131072x384_1_0_n_n_0_1_1384
        (Host.tanh (F := Ideal) (φ := .f32) (Host.dotGeneral (F := Ideal) (φ₁ := .f32) (φ₂ := .f32) Cert.ReferenceIdeal.dot_S131072x3_S3x384_S131072x384_1_0_0_1_n_n none
          (shapeCast _ x0 Cert.ReferenceIdeal.Gen.shapeCasts_S2048x64x3_S131072x3) W))
        (Cert.KernelIdeal.HostValue.sortedRows (F := Ideal) x1)
      = Cert.Descriptor.table (Cert.KernelIdeal.HostValue.coordsSorted (F := Ideal) x0 x1) W := by
  have hd : Cert.ReferenceIdeal.dot_S131072x3_S3x384_S131072x384_1_0_0_1_n_n
      = Cert.LibMatmulNN.dims Cert.ReferenceIdeal.Gen.dot_S131072x3_S3x384_S131072x384_1_0_0_1_n_n_wf := rfl
  have hg : Cert.ReferenceIdeal.gather_S131072x384_S131072x1_S131072x384_1_0_n_n_0_1_1384
      = RowIndex.takeRows 131072 131072 384 Cert.ReferenceIdeal.Gen.gather_S131072x384_S131072x1_S131072x384_1_0_n_n_0_1_1384_wf := rfl
  have hk : Cert.KernelIdeal.gather_S131072x3_S131072x1_S131072x3_1_0_n_n_0_1_13
      = RowIndex.takeRows 131072 131072 3 Cert.KernelIdeal.Gen.gather_S131072x3_S131072x1_S131072x3_1_0_n_n_0_1_13_wf := rfl
  unfold Cert.KernelIdeal.HostValue.coordsSorted
  rw [hd, hg, hk, Cert.Descriptor.host_table]
  exact (Cert.Descriptor.table_gather_rows (by norm_num) _ _ _ W _).symm

/-- The reference's run with each result at the kernel's function of the arguments. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
      r.2.mem ((c.tc : Thread Cert.ReferenceIdeal.nD Cert.ReferenceIdeal.τ).loc Cert.ReferenceIdeal.main_v14)
        = Cert.Descriptor.table (Cert.KernelIdeal.HostValue.coordsSorted (F := Ideal)
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1)))
            (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v21)
        = Cert.KernelIdeal.HostValue.confSorted (F := Ideal)
            (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v31)
        = Cert.KernelIdeal.HostValue.typeCount (F := Ideal)
            (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2)
        = m ((c.tc : Thread Cert.ReferenceIdeal.nD Cert.ReferenceIdeal.τ).loc Cert.ReferenceIdeal.main_arg2) :=
  (θ_run (Cert.ReferenceIdeal.defs (F := Ideal)) _ _).mono (fun _ h c =>
      ⟨(h c).1.trans (gathered_table _ _ _), (h c).2.1.trans rfl, (h c).2.2.1.trans rfl, (h c).2.2.2⟩)
    (Cert.ReferenceIdeal.Value.run (F := Ideal) m ρ)

end Cert.ReferenceIdeal.RefValue

end
-- ==== Proof.lean ====
/-
  The descriptor kernel against its reference: `Cert.Claim`.

  Both programs sort the atoms by type — `perm`, the stable sorting permutation of the flattened atom types — and
  return three arrays: the descriptors `tanh (coords_flat @ W)` of the atoms in sorted order, the atoms' conformer
  numbers in sorted order, and the number of atoms of each type. The reference computes the descriptor of every atom
  and gathers the `[131072, 384]` rows by `perm`; the kernel gathers the `[131072, 3]` coordinate rows by `perm` and
  computes the descriptors of the gathered rows in a 32-point pipelined region, 4096 rows a point. A descriptor is a
  function of its own atom's coordinates, so gathering before or after is the same array, on every extended real:
  no algebraic law beyond that is used, and the precondition is never opened. The other two results are the same host
  operations in both programs. The idealization rewrote nothing, so `preserves` is `True`.

  The frames of the two kernel programs are the generated ones; the reference's frame is its run with the results
  dropped. The kernel's first result is read block by block off the generated frame run (KernelValue, KernelRun), its
  host operations before the region by the run of a list of operations (KernelHost); the reference's run is the
  generated one, read as the same functions (ReferenceValue).
-/
import proofs.«133443_j81827716923470_1_alg».proof.Defs
import proofs.«133443_j81827716923470_1_alg».proof.Proof.Gen.Kernel
import proofs.«133443_j81827716923470_1_alg».proof.Proof.Gen.Kernel.Frame
import proofs.«133443_j81827716923470_1_alg».proof.Proof.Gen.KernelIdeal
import proofs.«133443_j81827716923470_1_alg».proof.Proof.Gen.KernelIdeal.Frame
import proofs.«133443_j81827716923470_1_alg».proof.Proof.Gen.KernelIdeal.Value
import proofs.«133443_j81827716923470_1_alg».proof.Proof.Gen.ReferenceIdeal
import proofs.«133443_j81827716923470_1_alg».proof.Proof.Gen.ReferenceIdeal.Run
import proofs.«133443_j81827716923470_1_alg».proof.Proof.Gen.Pre_finite_inputs
import proofs.«133443_j81827716923470_1_alg».proof.Proof.KernelRun
import proofs.«133443_j81827716923470_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The two runs end with each result at one function of the arguments, and the arguments agree. -/
theorem algebraic : Cert.algebraic_KernelIdeal_ReferenceIdeal := by
  intro m ρ m' ρ' _ hagree
  refine ⟨_, _, _, Cert.KernelIdeal.ArrayValue.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.RefValue.run m' ρ')
  · rw [(hagree c).1, (hagree c).2.1, (hagree c).2.2]
  · rw [(hagree c).2.1]
  · rw [(hagree c).2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
